-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S1x16384 : Shape := ⟨2, ![1, 16384]⟩
abbrev S8192x16384 : Shape := ⟨2, ![8192, 16384]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S8192x4096, .bf16⟩
  | .hbm, ⟨4, _⟩ => ⟨S16384x4096, .bf16⟩
  | .hbm, ⟨5, _⟩ => ⟨S1x16384, .f32⟩
  | .hbm, ⟨6, _⟩ => ⟨S8192x16384, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S16384_S1x16384 : S16384.ShapeCasts S1x16384
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x4096.size a
  hwx0_1 : ∀ i : grid0.Coords, EltTy.bits .bf16 = 32 ∨ (Rect.block (s := S16384x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x16384.size a
  hwx0_3 : ∀ i : grid0.Coords, EltTy.bits .f32 = 32 ∨ (Rect.block (s := S8192x16384) S1024x2048.size (cc0_transform_3 i) (hinb0_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S4096x16384 : Shape := ⟨2, ![4096, 16384]⟩
abbrev S8192x16384 : Shape := ⟨2, ![8192, 16384]⟩
abbrev S1x16384 : Shape := ⟨2, ![1, 16384]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S4096x16384, .f32⟩
  | .hbm, ⟨4, _⟩ => ⟨S8192x16384, .f32⟩
  | .hbm, ⟨5, _⟩ => ⟨S1x16384, .f32⟩
  | .hbm, ⟨6, _⟩ => ⟨S8192x16384, .f32⟩
  | .hbm, ⟨7, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S16384x4096_S4096x16384_1_0 : S16384x4096.Transposes [1, 0] S4096x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.LinearSpec.lean ====
/-
  The linear layer y = x · wᵀ + b over the extended reals, entry by entry, for x of shape [8192, 4096], w of shape
  [16384, 4096] and b of shape [16384]:

      y (r, q) = (∑ k < 4096, x (r, k) · w (q, k)) + b q.

  The contraction may be taken in four runs of 1024 consecutive coordinates, summed from zero one run after the
  other, with the bias added last: addition on the extended reals is associative and commutative with unit 0, and
  that is all the regrouping needs — no entry has to be finite.
-/
import Idealize.ShloMosaic.Lib.ValueIdx
import Idealize.ShloMosaic.PureOps.Ideal

noncomputable section

open scoped BigOperators

namespace Cert.LinearSpec

open Idealize.ShloMosaic Idealize.ShloMosaic.ValueIdx

/-- Coordinate `c` of the `s`-th run of 1024 consecutive contraction coordinates: `1024 · s + c`. -/
def kIdx (s : Fin 4) (c : Fin 1024) : Fin 4096 :=
  ⟨1024 * s.val + c.val, by have := s.isLt; have := c.isLt; omega⟩

theorem kIdx_val (s : Fin 4) (c : Fin 1024) : (kIdx s c).val = 1024 * s.val + c.val := rfl

/-- A sum over the 4096 contraction coordinates is the sum, over the four runs, of the sums over each run: every
    coordinate is `1024 · s + c` for exactly one pair `(s, c)`. -/
theorem sum_runs {β : Type*} [AddCommMonoid β] (f : Fin 4096 → β) :
    ∑ k : Fin 4096, f k = ∑ s : Fin 4, ∑ c : Fin 1024, f (kIdx s c) := by
  rw [← Fintype.sum_prod_type' (fun (s : Fin 4) (c : Fin 1024) => f (kIdx s c))]
  refine (Fintype.sum_equiv (finProdFinEquiv (m := 4) (n := 1024)) (fun x => f (kIdx x.1 x.2)) f fun x => ?_).symm
  refine congrArg f (Fin.ext ?_)
  rw [kIdx_val, finProdFinEquiv_apply_val]
  omega

variable (X : (⟨2, ![8192, 4096]⟩ : Shape).Idx → EReal) (W : (⟨2, ![16384, 4096]⟩ : Shape).Idx → EReal)
  (B : (⟨1, ![16384]⟩ : Shape).Idx → EReal)

/-- Entry `(r, q)` of `x · wᵀ + b`. -/
def linearAt (r : Fin 8192) (q : Fin 16384) : EReal :=
  (∑ k : Fin 4096, X (ix2 r k) * W (ix2 q k)) + B (ix1 q)

/-- `x · wᵀ + b` as one function of the output index. -/
def linear : (⟨2, ![8192, 16384]⟩ : Shape).Idx → EReal := fun i => linearAt X W B (i 0) (i 1)

theorem linear_ix2 (r : Fin 8192) (q : Fin 16384) : linear X W B (ix2 r q) = linearAt X W B r q := rfl

/-- The part of row `r` of `x` against row `q` of `w` that lies in the `s`-th run of contraction coordinates. -/
def runDot (r : Fin 8192) (q : Fin 16384) (s : Fin 4) : EReal :=
  ∑ c : Fin 1024, X (ix2 r (kIdx s c)) * W (ix2 q (kIdx s c))

/-- The entry, with the contraction taken run by run from zero and the bias added last. -/
theorem linearAt_runs (r : Fin 8192) (q : Fin 16384) :
    linearAt X W B r q
      = ((((0 + runDot X W r q 0) + runDot X W r q 1) + runDot X W r q 2) + runDot X W r q 3) + B (ix1 q) := by
  unfold linearAt runDot
  rw [sum_runs (fun k => X (ix2 r k) * W (ix2 q k)), Fin.sum_univ_four, zero_add]

end Cert.LinearSpec

end
-- ==== Proof.RefSide.lean ====
/-
  The reference program computes x · wᵀ + b: it transposes w, contracts axis 1 of x against axis 0 of the transposed w,
  and adds b broadcast along the rows. Read at an output index (r, q): the transposed w at (k, q) is w at (q, k), the
  contraction is the sum over k < 4096 of x (r, k) · w (q, k), and the broadcast bias is b q.
-/
import proofs.«146289_j84902913507492_2_alg».proof.Proof.Gen.ReferenceIdeal.Read
import proofs.«146289_j84902913507492_2_alg».proof.Proof.LinearSpec

noncomputable section

open scoped BigOperators

namespace Cert.ReferenceIdeal.Bridge

open Cert.ReferenceIdeal Cert.ReferenceIdeal.Gen Cert.ReferenceIdeal.Read Idealize.ShloMosaic Idealize.ShloMosaic.ValueIdx
open Cert.LinearSpec

/-- The reference's result, as a function of its three arguments, is the linear layer entry by entry. -/
theorem ref_linear (x0 : (⟨S8192x4096, .f32⟩ : BufTy).Contents (Elt Ideal)) (x1 : (⟨S16384x4096, .f32⟩ : BufTy).Contents (Elt Ideal))
    (x2 : (⟨S16384, .f32⟩ : BufTy).Contents (Elt Ideal)) :
    val_main_v4 (F := Ideal) x0 x1 x2 = linear x0 x1 x2 := by
  funext i
  obtain ⟨r, q, rfl⟩ : ∃ (r : Fin 8192) (q : Fin 16384), i = ix2 r q := ⟨i 0, i 1, eq_ix2 i⟩
  -- the left factor is read at (r, k), the transposed right factor at (k, q), that is w at (q, k), the bias at q
  have el : ∀ k : Fin 4096, lidx_main_v1 (ix2 r q) k = ix2 r k := fun k =>
    funext fun a => Fin.ext (by match a with | ⟨0, _⟩ => rfl | ⟨1, _⟩ => rfl)
  have er : ∀ k : Fin 4096, idx_main_v0 (ridx_main_v1 (ix2 r q) k) = ix2 q k := fun k =>
    funext fun a => Fin.ext (by match a with | ⟨0, _⟩ => rfl | ⟨1, _⟩ => rfl)
  have eb : idx_main_v2 (idx_main_v3 (ix2 r q)) = ix1 q :=
    funext fun a => Fin.ext (by match a with | ⟨0, _⟩ => rfl)
  rw [val_main_v4_apply, val_main_v1_apply, val_main_v3_apply, val_main_v2_apply, linear_ix2]
  simp only [val_main_v0_apply, el, er, eb]
  rfl

end Cert.ReferenceIdeal.Bridge

end
-- ==== Proof.LibMatmulRows.lean ====
/-
  A general fact about a matrix product at the ideal values.

  A kernel's matrix product whose dimension numbers contract the LAST axis of both operands (an [m, k] array against
  an [n, k] array: rows against rows, no batch axis), accumulated into the zero splat, read at entry (a, b), is the
  inner product of row `a` of the left factor with row `b` of the right one: `∑ c, A a c · B b c`.
-/
import Idealize.ShloMosaic.Lib.ValueIdx
import Idealize.ShloMosaic.PureOps.Ideal.Laws

noncomputable section

open scoped BigOperators

namespace Cert.LibMatmulRows

open Idealize.ShloMosaic Idealize.ShloMosaic.ValueIdx

/-- A product contracting the last axis of both operands, accumulated into the zero splat, read at an entry: the inner
    product of a row of the left factor with a row of the right one. -/
theorem matmul_rows_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul (DotDims.transposedRhs m k n) prec A B _ (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c := by
    funext ax; apply Fin.ext
    match ax with
    | ⟨0, _⟩ => simp [DotDims.lhsIdx, DotDims.transposedRhs] <;> rfl
    | ⟨1, _⟩ => exact ((DotDims.transposedRhs m k n).lhsIdx_val_of_single (cl := (1 : Fin 2)) rfl _ _).trans hc
  have er : (DotDims.transposedRhs m k n).rhsIdx (ix2 a b) ((contrEquiv1 (DotDims.transposedRhs m k n) k rfl rfl).symm c) = ix2 b c := by
    funext ax; apply Fin.ext
    match ax with
    | ⟨0, _⟩ => simp [DotDims.rhsIdx, DotDims.transposedRhs] <;> rfl
    | ⟨1, _⟩ => exact ((DotDims.transposedRhs m k n).rhsIdx_val_of_single (cr := (1 : Fin 2)) rfl _ _).trans hc
  rw [el, er]

end Cert.LibMatmulRows

end
-- ==== Proof.KernelPay.lean ====
/-
  What the kernel body stores, read at an entry (p, q) of the [1024, 2048] output block.

  The body keeps the output block as its accumulator. It stores, in this order:
    * at the first step of a run, the zero block;
    * at every step, the accumulator plus the product of the step's [1024, 1024] block of x with the step's
      [2048, 1024] block of w, both contracted along their last axis — at (p, q) the accumulator there plus the sum
      over c < 1024 of x-block (p, c) · w-block (q, c);
    * at the last step of a run, that value plus the [1, 2048] bias block broadcast down the rows — at (p, q) the
      value there plus bias-block (0, q).
-/
import proofs.«146289_j84902913507492_2_alg».proof.Proof.Gen.KernelIdeal.Skeleton
import proofs.«146289_j84902913507492_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bridge

open Cert.KernelIdeal Cert.KernelIdeal.Gen Idealize.ShloMosaic Idealize.ShloMosaic.ValueIdx

/-- The body's product contracts the last axis of both factors, with no batch axis. -/
theorem dot_eq : dot_S1024x1024_S2048x1024_S1024x2048_1_1_0_0_n_n = DotDims.transposedRhs 1024 1024 2048 := rfl

/-- The block a run starts from is zero everywhere. -/
theorem zero_block_apply (p : Fin 1024) (q : Fin 2048) : k0_pay1 (F := Ideal) (ix2 p q) = 0 :=
  Ideal.ofBits_zero_f32

/-- One step of the accumulation, at an entry: the accumulator there plus row `p` of the x-block against row `q` of
    the w-block. -/
theorem acc_step_apply (x0 : FVec Ideal S1024x1024 .bf16) (x1 : FVec Ideal S2048x1024 .bf16)
    (acc : FVec Ideal S1024x2048 .f32) (p : Fin 1024) (q : Fin 2048) :
    k0_pay2 (F := Ideal) x0 x1 acc (ix2 p q) = acc (ix2 p q) + ∑ c : Fin 1024, x0 (ix2 p c) * x1 (ix2 q c) := by
  unfold k0_pay2
  simp only [shapeCast_self]
  refine (addf_apply _ _ _).trans ?_
  refine congrArg (acc (ix2 p q) + ·) ?_
  rw [dot_eq]
  exact Cert.LibMatmulRows.matmul_rows_zero_apply none x0 x1 p q

/-- The last step's bias, at an entry: the value there plus the bias block's one row at `q`. -/
theorem bias_step_apply (v : FVec Ideal S1024x2048 .f32) (b : FVec Ideal S1x2048 .f32) (p : Fin 1024) (q : Fin 2048) :
    k0_pay3 (F := Ideal) v b (ix2 p q) = v (ix2 p q) + b (ix2 (0 : Fin 1) q) := by
  unfold k0_pay3
  simp only [shapeCast_self]
  refine (addf_apply _ _ _).trans ?_
  exact congrArg (v (ix2 p q) + ·) (broadcastTo_1b_ab_apply b _ p q)

/-- A whole run at an entry: from the zero block, four accumulating steps over the blocks `(a₀, w₀) … (a₃, w₃)`, then the
    bias — the four partial contractions summed from zero in order, plus the bias block's entry. -/
theorem run_fold_apply (a0 a1 a2 a3 : FVec Ideal S1024x1024 .bf16) (w0 w1 w2 w3 : FVec Ideal S2048x1024 .bf16)
    (bb : FVec Ideal S1x2048 .f32) (p : Fin 1024) (q : Fin 2048) :
    k0_pay3 (F := Ideal) (k0_pay2 (F := Ideal) a3 w3 (k0_pay2 (F := Ideal) a2 w2 (k0_pay2 (F := Ideal) a1 w1
        (k0_pay2 (F := Ideal) a0 w0 (k0_pay1 (F := Ideal)))))) bb (ix2 p q)
      = ((((0 + ∑ c : Fin 1024, a0 (ix2 p c) * w0 (ix2 q c)) + ∑ c : Fin 1024, a1 (ix2 p c) * w1 (ix2 q c))
            + ∑ c : Fin 1024, a2 (ix2 p c) * w2 (ix2 q c)) + ∑ c : Fin 1024, a3 (ix2 p c) * w3 (ix2 q c))
          + bb (ix2 (0 : Fin 1) q) := by
  rw [bias_step_apply, acc_step_apply, acc_step_apply, acc_step_apply, acc_step_apply, zero_block_apply]

end Cert.KernelIdeal.Bridge

end
-- ==== Proof.KernelBlocks.lean ====
/-
  The blocks the kernel body is handed, read off the argument arrays.

  The grid has 8 · 8 · 4 points in row-major order; point t has coordinates (t / 32, t / 4 mod 8, t mod 4): its block
  row of x, its block column of the output (a block row of w), and its step along the contraction. At point t
    * the x-block  is rows 1024 · (t / 32) …, columns 1024 · (t mod 4) … of x;
    * the w-block  is rows 2048 · (t / 4 mod 8) …, columns 1024 · (t mod 4) … of w;
    * the bias block is columns 2048 · (t / 4 mod 8) … of the bias laid out as one row.
  Before the region the program only changes the number format of x and w (the identity on the extended reals) and
  views the bias as a [1, 16384] array.
-/
import proofs.«146289_j84902913507492_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The block indices of the three input windows at each grid point, in closed form. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8 :=
  (by decide +kernel : ∀ t : Fin grid0.N, _)

/-- x as the region finds it is x as launched: the change of format is the identity on the extended reals. -/
theorem V_x (c : Dev nD) :
    (V m c main_v0 : S8192x4096.Idx → EReal) = m ((c : Thread nD τ).loc main_arg0) := by
  dsimp only [Gen.V, Gen.hostOps0]; after_results; rfl

/-- w as the region finds it is w as launched. -/
theorem V_w (c : Dev nD) :
    (V m c main_v1 : S16384x4096.Idx → EReal) = m ((c : Thread nD τ).loc main_arg1) := by
  dsimp only [Gen.V, Gen.hostOps0]; after_results; rfl

/-- The bias as the region finds it, at column `j` of its one row, is the bias as launched at `j`. -/
theorem V_b_apply (c : Dev nD) (u : Fin 1) (j : Fin 16384) :
    (V m c main_v2 : S1x16384.Idx → EReal) (ix2 u j) = m ((c : Thread nD τ).loc main_arg2) (ix1 j) := by
  have e : (V m c main_v2 : S1x16384.Idx → EReal)
      = shapeCast S1x16384 (m ((c : Thread nD τ).loc main_arg2)) shapeCasts_S16384_S1x16384 := by
    dsimp only [Gen.V, Gen.hostOps0]; after_results; rfl
  rw [e]
  exact shapeCast_a_1a_apply (m ((c : Thread nD τ).loc main_arg2)) shapeCasts_S16384_S1x16384 u j

/-- The x-block at point `t`, at `(p, cc)`: x at row `1024 · (t / 32) + p`, column `1024 · (t mod 4) + cc`. -/
theorem x_block_apply (c : Dev nD) (t : Fin cfg0.N) (p cc : Fin 1024) (r : Fin 8192) (k : Fin 4096)
    (hr : r.val = 1024 * (t.val / 32) + p.val) (hk : k.val = 1024 * (t.val % 4) + cc.val) :
    (iblk m c 0 t (ix2 p cc) : EReal) = m ((c : Thread nD τ).loc main_arg0) (ix2 r k) := by
  obtain ⟨e0, e1, -⟩ := idx_facts t
  show (V m c main_v0 : S8192x4096.Idx → EReal) (((cfg0.win 0).blk t).view.emb (ix2 p cc)) = _
  rw [V_x]
  refine congrArg (m ((c : Thread nD τ).loc main_arg0)) (funext fun a => Fin.ext ?_)
  match a with
  | ⟨0, _⟩ => show win0_0.index t (0 : Fin 2) * 1024 + 1 * p.val = r.val; omega
  | ⟨1, _⟩ => show win0_0.index t (1 : Fin 2) * 1024 + 1 * cc.val = k.val; omega

/-- The w-block at point `t`, at `(qq, cc)`: w at row `2048 · (t / 4 mod 8) + qq`, column `1024 · (t mod 4) + cc`. -/
theorem w_block_apply (c : Dev nD) (t : Fin cfg0.N) (qq : Fin 2048) (cc : Fin 1024) (q : Fin 16384) (k : Fin 4096)
    (hq : q.val = 2048 * (t.val / 4 % 8) + qq.val) (hk : k.val = 1024 * (t.val % 4) + cc.val) :
    (iblk m c 1 t (ix2 qq cc) : EReal) = m ((c : Thread nD τ).loc main_arg1) (ix2 q k) := by
  obtain ⟨-, -, e2, e3, -⟩ := idx_facts t
  show (V m c main_v1 : S16384x4096.Idx → EReal) (((cfg0.win 1).blk t).view.emb (ix2 qq cc)) = _
  rw [V_w]
  refine congrArg (m ((c : Thread nD τ).loc main_arg1)) (funext fun a => Fin.ext ?_)
  match a with
  | ⟨0, _⟩ => show win0_1.index t (0 : Fin 2) * 2048 + 1 * qq.val = q.val; omega
  | ⟨1, _⟩ => show win0_1.index t (1 : Fin 2) * 1024 + 1 * cc.val = k.val; omega

/-- The bias block at point `t`, at `(0, qq)`: the bias at `2048 · (t / 4 mod 8) + qq`. -/
theorem b_block_apply (c : Dev nD) (t : Fin cfg0.N) (qq : Fin 2048) (q : Fin 16384)
    (hq : q.val = 2048 * (t.val / 4 % 8) + qq.val) :
    (iblk m c 2 t (ix2 (0 : Fin 1) qq) : EReal) = m ((c : Thread nD τ).loc main_arg2) (ix1 q) := by
  obtain ⟨-, -, -, -, e4, e5⟩ := idx_facts t
  show (V m c main_v2 : S1x16384.Idx → EReal) (((cfg0.win 2).blk t).view.emb (ix2 (0 : Fin 1) qq)) = _
  have hi : ((cfg0.win 2).blk t).view.emb (ix2 (0 : Fin 1) qq) = ix2 (0 : Fin 1) q := by
    funext a; apply Fin.ext
    match a with
    | ⟨0, _⟩ => show win0_2.index t (0 : Fin 2) * 1 + 1 * 0 = 0; omega
    | ⟨1, _⟩ => show win0_2.index t (1 : Fin 2) * 2048 + 1 * qq.val = q.val; omega
  rw [hi]
  exact V_b_apply m c 0 q

end Cert.KernelIdeal.Bridge

end
-- ==== Proof.KernelSide.lean ====
/-
  The kernel computes x · wᵀ + b.

  The output array is tiled by 8 × 8 blocks of shape [1024, 2048]; block (I, J) is written back by the last of a run
  of four consecutive grid points, 4 · (8 · I + J) … 4 · (8 · I + J) + 3. Over the run the block is the accumulator:
  zero, then at step s the product of rows 1024 · I … of x with rows 2048 · J … of w over the contraction
  coordinates 1024 · s … 1024 · s + 1023, then the bias columns 2048 · J …. At entry (r, q) of the array, in block
  (r / 1024, q / 2048) at place (r mod 1024, q mod 2048), that is the contraction of row r of x with row q of w taken
  in four runs of 1024 coordinates from zero, plus b q: the linear layer's entry, by associativity alone.
-/
import proofs.«146289_j84902913507492_2_alg».proof.Proof.Gen.KernelIdeal.Value
import proofs.«146289_j84902913507492_2_alg».proof.Proof.KernelPay
import proofs.«146289_j84902913507492_2_alg».proof.Proof.KernelBlocks
import proofs.«146289_j84902913507492_2_alg».proof.Proof.LinearSpec

noncomputable section

open scoped BigOperators

namespace Cert.KernelIdeal.Bridge

open Cert.KernelIdeal Cert.KernelIdeal.Gen Cert.KernelIdeal.Value Idealize.ShloMosaic Idealize.ShloMosaic.TcCoe Idealize.SL.Sem
open Idealize.ShloMosaic.ValueIdx Cert.LinearSpec

variable (m : (ℓ : Loc nD τ sig) → Buf (Elt Ideal) ℓ)

/-- A step that is neither the first nor the last of its run accumulates one product. -/
theorem step_mid (c : Dev nD) (n : ℕ) (h : n < cfg0.N) (acc : Vec Ideal S1024x2048 .f32) (hn : n % 4 = 1 ∨ n % 4 = 2) :
    step3 m c n h acc = k0_pay2 (iblk m c 0 ⟨n, h⟩) (iblk m c 1 ⟨n, h⟩) acc := by
  unfold step3
  rw [if_pos (by omega)]

/-- The last step of a run accumulates one product and then adds the bias block. -/
theorem step_last (c : Dev nD) (n : ℕ) (h : n < cfg0.N) (acc : Vec Ideal S1024x2048 .f32) (hn : n % 4 = 3) :
    step3 m c n h acc = k0_pay3 (k0_pay2 (iblk m c 0 ⟨n, h⟩) (iblk m c 1 ⟨n, h⟩) acc) (iblk m c 2 ⟨n, h⟩) := by
  unfold step3
  rw [if_neg (by omega), if_pos (by omega)]

/-- The fold over a run starting at point `b`, spelt out: four accumulating steps from the zero block, then the bias. -/
theorem fold_unroll (c : Dev nD) (b : ℕ) (hb : b % 4 = 0) (h : b + 3 < cfg0.N) :
    Pipeline.accAt (reset3 m c) (step3 m c) b 3 h
      = k0_pay3 (k0_pay2 (iblk m c 0 ⟨b + 3, h⟩) (iblk m c 1 ⟨b + 3, h⟩)
          (k0_pay2 (iblk m c 0 ⟨b + 2, by omega⟩) (iblk m c 1 ⟨b + 2, by omega⟩)
            (k0_pay2 (iblk m c 0 ⟨b + 1, by omega⟩) (iblk m c 1 ⟨b + 1, by omega⟩)
              (k0_pay2 (iblk m c 0 ⟨b, by omega⟩) (iblk m c 1 ⟨b, by omega⟩) (k0_pay1 (F := Ideal))))))
          (iblk m c 2 ⟨b + 3, h⟩) := by
  rw [Pipeline.accAt_succ, Pipeline.accAt_succ, Pipeline.accAt_succ, Pipeline.accAt_zero]
  rw [step_last m c _ _ _ (by omega), step_mid m c _ _ _ (by omega), step_mid m c _ _ _ (by omega)]
  rfl

/-- What the output array ends holding is the linear layer of the argument arrays, entry by entry. -/
theorem G3_linear (c : Dev nD) (i : S8192x16384.Idx) :
    (G3 m c i : EReal)
      = linear (m ((c : Thread nD τ).loc main_arg0)) (m ((c : Thread nD τ).loc main_arg1))
          (m ((c : Thread nD τ).loc main_arg2)) i := by
  obtain ⟨r, q, rfl⟩ : ∃ (r : Fin 8192) (q : Fin 16384), i = ix2 r q := ⟨i 0, i 1, eq_ix2 i⟩
  have hN : cfg0.N = 256 := N_0
  have hr := r.isLt
  have hq := q.isLt
  -- the run that writes the block holding (r, q), and the entry's place in the block
  have hR : run3Of (ix2 r q) = 8 * (r.val / 1024) + q.val / 2048 := by
    show 8 * (r.val / 1024 - 0) + 1 * (q.val / 2048 - 0) = _
    omega
  have hloc : loc3Of (ix2 r q)
      = ix2 (⟨r.val % 1024, Nat.mod_lt _ (by decide)⟩ : Fin 1024) (⟨q.val % 2048, Nat.mod_lt _ (by decide)⟩ : Fin 2048) := by
    funext a
    match a with
    | ⟨0, _⟩ => rfl
    | ⟨1, _⟩ => rfl
  obtain ⟨b, hbdef⟩ : ∃ b, b = 4 * run3Of (ix2 r q) := ⟨_, rfl⟩
  have hb : b = 4 * (8 * (r.val / 1024) + q.val / 2048) := by rw [hbdef, hR]
  have hlt : b + 3 < cfg0.N := by rw [hN]; omega
  unfold G3
  rw [← hbdef, dif_pos hlt, hloc, linear_ix2, linearAt_runs, fold_unroll m c b (by omega) hlt]
  refine (run_fold_apply (iblk m c 0 ⟨b, by omega⟩) (iblk m c 0 ⟨b + 1, by omega⟩) (iblk m c 0 ⟨b + 2, by omega⟩)
    (iblk m c 0 ⟨b + 3, hlt⟩) (iblk m c 1 ⟨b, by omega⟩) (iblk m c 1 ⟨b + 1, by omega⟩) (iblk m c 1 ⟨b + 2, by omega⟩)
    (iblk m c 1 ⟨b + 3, hlt⟩) (iblk m c 2 ⟨b + 3, hlt⟩) ⟨r.val % 1024, Nat.mod_lt _ (by decide)⟩
    ⟨q.val % 2048, Nat.mod_lt _ (by decide)⟩).trans ?_
  -- each step's product is the contraction over that step's run of coordinates: at point `b + s` the x-block starts at
  -- row 1024 · (r / 1024) and column 1024 · s, the w-block at row 2048 · (q / 2048) and column 1024 · s
  have hS : ∀ (s : Fin 4) (n : ℕ) (_ : n = b + s.val) (hs : n < cfg0.N)
      (A : FVec Ideal S1024x1024 .bf16) (Wb : FVec Ideal S2048x1024 .bf16),
      A = iblk m c 0 ⟨n, hs⟩ → Wb = iblk m c 1 ⟨n, hs⟩ →
      (∑ cc : Fin 1024, A (ix2 (⟨r.val % 1024, Nat.mod_lt _ (by decide)⟩ : Fin 1024) cc)
          * Wb (ix2 (⟨q.val % 2048, Nat.mod_lt _ (by decide)⟩ : Fin 2048) cc))
        = runDot (m ((c : Thread nD τ).loc main_arg0)) (m ((c : Thread nD τ).loc main_arg1)) r q s := by
    intro s n hn hs A Wb hA hW
    have hs4 := s.isLt
    unfold runDot
    refine Finset.sum_congr rfl fun cc _ => ?_
    have hcc := cc.isLt
    have e1 : A (ix2 (⟨r.val % 1024, Nat.mod_lt _ (by decide)⟩ : Fin 1024) cc)
        = m ((c : Thread nD τ).loc main_arg0) (ix2 r (kIdx s cc)) := by
      rw [hA]
      exact x_block_apply m c ⟨n, hs⟩ ⟨r.val % 1024, Nat.mod_lt _ (by decide)⟩ cc r (kIdx s cc)
        (by show r.val = 1024 * (n / 32) + r.val % 1024; omega)
        (by show 1024 * s.val + cc.val = 1024 * (n % 4) + cc.val; omega)
    have e2 : Wb (ix2 (⟨q.val % 2048, Nat.mod_lt _ (by decide)⟩ : Fin 2048) cc)
        = m ((c : Thread nD τ).loc main_arg1) (ix2 q (kIdx s cc)) := by
      rw [hW]
      exact w_block_apply m c ⟨n, hs⟩ ⟨q.val % 2048, Nat.mod_lt _ (by decide)⟩ cc q (kIdx s cc)
        (by show q.val = 2048 * (n / 4 % 8) + q.val % 2048; omega)
        (by show 1024 * s.val + cc.val = 1024 * (n % 4) + cc.val; omega)
    rw [e1, e2]
  -- the bias block at the run's last point starts at column 2048 · (q / 2048)
  have eb := b_block_apply m c ⟨b + 3, hlt⟩ ⟨q.val % 2048, Nat.mod_lt _ (by decide)⟩ q
    (by show q.val = 2048 * ((b + 3) / 4 % 8) + q.val % 2048; omega)
  rw [hS 0 b rfl (by omega) _ _ rfl rfl, hS 1 (b + 1) rfl (by omega) _ _ rfl rfl,
    hS 2 (b + 2) rfl (by omega) _ _ rfl rfl, hS 3 (b + 3) rfl hlt _ _ rfl rfl, eb]

end Cert.KernelIdeal.Bridge

end
-- ==== Proof.lean ====
/-
  Both programs compute the linear layer y = x · wᵀ + b for x of shape [8192, 4096], w of shape [16384, 4096] and b of
  shape [16384]: at entry (r, q), the sum over k < 4096 of x (r, k) · w (q, k), plus b q.

  The reference does it in one piece: w transposed, one contraction, the bias broadcast along the rows and added.
  The kernel tiles the output in 8 × 8 blocks of shape [1024, 2048] and walks the contraction in four steps of 1024
  coordinates, keeping the output block as its accumulator: zero at the first step, one block product added at each
  step, the bias block added at the last. Beforehand it changes the number format of x and w, which is the identity
  on the extended reals, and views the bias as one row. So at the ideal values the kernel's entry is the same
  contraction summed in four consecutive runs from zero with the bias added last, and the two results are equal because
  addition of extended reals is associative with unit zero; no entry needs to be finite.

  Each program's run, with its result array named, is its generated run; the frames are those runs with the result
  dropped. Nothing was rewritten between the kernel and its idealization, so that conjunct is trivial.
-/
import proofs.«146289_j84902913507492_2_alg».proof.Defs
import proofs.«146289_j84902913507492_2_alg».proof.Proof.Gen.Kernel.Frame
import proofs.«146289_j84902913507492_2_alg».proof.Proof.Gen.KernelIdeal.Value
import proofs.«146289_j84902913507492_2_alg».proof.Proof.Gen.Pre_finite_inputs
import proofs.«146289_j84902913507492_2_alg».proof.Proof.Gen.ReferenceIdeal.Run
import proofs.«146289_j84902913507492_2_alg».proof.Proof.RefSide
import proofs.«146289_j84902913507492_2_alg».proof.Proof.KernelSide
import Idealize.ShloMosaic.Adequacy
import Idealize.ShloMosaic.Init

noncomputable section

namespace Cert.Proof

open Idealize.ShloMosaic Idealize.SL.Sem

/-- The idealized kernel runs and leaves its arguments unchanged. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments unchanged. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, w and b, the kernel's output array and the reference's result are both the linear
    layer of those arguments, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine ((Cert.ReferenceIdeal.Read.val_main_v4_eq (F := Ideal) _ _ _).trans
    (Cert.ReferenceIdeal.Bridge.ref_linear _ _ _)).trans ?_
  exact (funext fun i => Cert.KernelIdeal.Bridge.G3_linear m c i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
